-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v273) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x7 : Shape := ⟨2, ![2000000, 7]⟩
abbrev S_ : Shape := ⟨0, ![]⟩

class Facts : Prop where
  bcast_S_S2000000x7 : S_.BroadcastsInDim S2000000x7 (![] : Fin 0 → Fin S2000000x7.rank)
  reducesTo_S2000000x7_S_d0_1 : S2000000x7.ReducesTo [0, 1] S_
  h_S_ : 0 < S_.numel

variable [Facts]

def fn {F : FTy → Type} [FloatOps F] (main_arg0 : FVec F S2000000x7 .f32) : IVec S_ 1 :=
  let main_v0 : FVec F S2000000x7 .f32 := Host.absf main_arg0
  let main_cst : FVec F S_ .f32 := constant S_ .f32 0x7F800000#32
  let main_v1 : FVec F S2000000x7 .f32 := broadcastInDim S2000000x7 ![] bcast_S_S2000000x7 main_cst
  let main_v2 : IVec S2000000x7 1 := cmpf .olt main_v0 main_v1
  let main_c : IVec S_ 1 := constantI S_ 1 1#1
  let main_v3 : IVec S_ 1 := (fun x v => Host.reduce IntOp.andi x v reducesTo_S2000000x7_S_d0_1 h_S_) main_v2 main_c
  main_v3
-- ==== Kernel.lean ====
abbrev S2000000x7 : Shape := ⟨2, ![2000000, 7]⟩
abbrev S2000000x128 : Shape := ⟨2, ![2000000, 128]⟩
abbrev S2000x7 : Shape := ⟨2, ![2000, 7]⟩
abbrev S2000x128 : Shape := ⟨2, ![2000, 128]⟩
abbrev S2000 : Shape := ⟨1, ![2000]⟩
abbrev S2000x1 : Shape := ⟨2, ![2000, 1]⟩
abbrev S2000000x8x4x4 : Shape := ⟨4, ![2000000, 8, 4, 4]⟩

abbrev nBuf : Space → Nat
  | .hbm => 3
  | .vmem => 4
  | .smem => 0
  | _ => 0

abbrev bufTy : (tb : Table) → Fin (tcTables nBuf tb) → BufTy
  | .hbm, ⟨0, _⟩ => ⟨S2000000x7, .f32⟩
  | .hbm, ⟨1, _⟩ => ⟨S2000000x128, .f32⟩
  | .hbm, ⟨2, _⟩ => ⟨S2000000x8x4x4, .f32⟩
  | .local _ .vmem, ⟨0, _⟩ => ⟨S2000x7, .f32⟩
  | .local _ .vmem, ⟨1, _⟩ => ⟨S2000x7, .f32⟩
  | .local _ .vmem, ⟨2, _⟩ => ⟨S2000x128, .f32⟩
  | .local _ .vmem, ⟨3, _⟩ => ⟨S2000x128, .f32⟩
  | _, _ => ⟨S2000000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2000x7_S2000x7_0_0 : ∀ a, (![0, 0] : Fin 2 → Nat) a + S2000x7.size a ≤ S2000x7.size a
  h_S2000x7 : 0 < S2000x7.numel
  slices_S2000x7_o0_0_S2000x1 : S2000x7.Slices ![0, 0] S2000x1
  shapeCasts_S2000x1_S2000 : S2000x1.ShapeCasts S2000
  slices_S2000x7_o0_1_S2000x1 : S2000x7.Slices ![0, 1] S2000x1
  slices_S2000x7_o0_2_S2000x1 : S2000x7.Slices ![0, 2] S2000x1
  slices_S2000x7_o0_3_S2000x1 : S2000x7.Slices ![0, 3] S2000x1
  slices_S2000x7_o0_4_S2000x1 : S2000x7.Slices ![0, 4] S2000x1
  slices_S2000x7_o0_5_S2000x1 : S2000x7.Slices ![0, 5] S2000x1
  slices_S2000x7_o0_6_S2000x1 : S2000x7.Slices ![0, 6] S2000x1
  shapeCasts_S2000_S2000x1 : S2000.ShapeCasts S2000x1
  concatenates_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x1_S2000x128_d1 : Shape.Concatenates (S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: S2000x1 :: []) S2000x128 1
  inb_S2000x128_S2000x128_0_0 : ∀ a, (![0, 0] : Fin 2 → Nat) a + S2000x128.size a ≤ S2000x128.size a
  h_S2000x128 : 0 < S2000x128.numel
  shapeCasts_S2000000x128_S2000000x8x4x4 : S2000000x128.ShapeCasts S2000000x8x4x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x7.size a ≤ S2000000x7.size a
  hwx0_0 : ∀ i : grid0.Coords, EltTy.bits .f32 = 32 ∨ (Rect.block (s := S2000000x7) S2000x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S2000000x128.size a
  hwx0_1 : ∀ i : grid0.Coords, EltTy.bits .f32 = 32 ∨ (Rect.block (s := S2000000x128) S2000x128.size (cc0_transform_1 i) (hinb0_1 i)).WholeWords (EltTy.packing .f32)

variable [Facts₀]

abbrev win0_0 : Pipeline.Window sig grid0 :=
  Pipeline.Window.ofSpec (Memref.whole main_arg0) S2000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2000000x7 : Shape := ⟨2, ![2000000, 7]⟩
abbrev S2000000x1 : Shape := ⟨2, ![2000000, 1]⟩
abbrev S2000000 : Shape := ⟨1, ![2000000]⟩
abbrev S_ : Shape := ⟨0, ![]⟩
abbrev S2000000x4 : Shape := ⟨2, ![2000000, 4]⟩
abbrev S2000000x1x4 : Shape := ⟨3, ![2000000, 1, 4]⟩
abbrev S2000000x4x4 : Shape := ⟨3, ![2000000, 4, 4]⟩
abbrev S2000000x1x4x4 : Shape := ⟨4, ![2000000, 1, 4, 4]⟩
abbrev S2000000x8x4x4 : Shape := ⟨4, ![2000000, 8, 4, 4]⟩

abbrev nBuf : Space → Nat
  | .hbm => 283
  | .vmem => 0
  | .smem => 0
  | _ => 0

abbrev hbmTy0_0 (i : Nat) : BufTy := match i % 128 with
  | 0 => ⟨S2000000x7, .f32⟩
  | 1 => ⟨S2000000x1, .f32⟩
  | 2 => ⟨S2000000, .f32⟩
  | 3 => ⟨S_, .f32⟩
  | 4 => ⟨S2000000, .f32⟩
  | 5 => ⟨S_, .f32⟩
  | 6 => ⟨S2000000, .f32⟩
  | 7 => ⟨S2000000x1, .f32⟩
  | 8 => ⟨S2000000, .f32⟩
  | 9 => ⟨S2000000, .f32⟩
  | 10 => ⟨S2000000, .f32⟩
  | 11 => ⟨S2000000x1, .f32⟩
  | 12 => ⟨S2000000, .f32⟩
  | 13 => ⟨S2000000, .f32⟩
  | 14 => ⟨S2000000, .f32⟩
  | 15 => ⟨S2000000x1, .f32⟩
  | 16 => ⟨S2000000, .f32⟩
  | 17 => ⟨S_, .f32⟩
  | 18 => ⟨S2000000, .f32⟩
  | 19 => ⟨S2000000, .f32⟩
  | 20 => ⟨S2000000, .f32⟩
  | 21 => ⟨S2000000, .f32⟩
  | 22 => ⟨S2000000x1, .f32⟩
  | 23 => ⟨S2000000, .f32⟩
  | 24 => ⟨S2000000, .f32⟩
  | 25 => ⟨S2000000, .f32⟩
  | 26 => ⟨S2000000x1, .f32⟩
  | 27 => ⟨S2000000, .f32⟩
  | 28 => ⟨S2000000, .f32⟩
  | 29 => ⟨S2000000, .f32⟩
  | 30 => ⟨S2000000x1, .f32⟩
  | 31 => ⟨S2000000, .f32⟩
  | 32 => ⟨S_, .f32⟩
  | 33 => ⟨S2000000, .f32⟩
  | 34 => ⟨S2000000, .f32⟩
  | 35 => ⟨S2000000, .f32⟩
  | 36 => ⟨S2000000, .f32⟩
  | 37 => ⟨S2000000x1, .f32⟩
  | 38 => ⟨S2000000, .f32⟩
  | 39 => ⟨S_, .f32⟩
  | 40 => ⟨S2000000, .f32⟩
  | 41 => ⟨S2000000, .f32⟩
  | 42 => ⟨S2000000, .f32⟩
  | 43 => ⟨S2000000, .f32⟩
  | 44 => ⟨S2000000, .f32⟩
  | 45 => ⟨S2000000x1, .f32⟩
  | 46 => ⟨S2000000x1, .f32⟩
  | 47 => ⟨S2000000x1, .f32⟩
  | 48 => ⟨S2000000x1, .f32⟩
  | 49 => ⟨S2000000x4, .f32⟩
  | 50 => ⟨S2000000x1, .f32⟩
  | 51 => ⟨S2000000x1, .f32⟩
  | 52 => ⟨S2000000x1, .f32⟩
  | 53 => ⟨S2000000x1, .f32⟩
  | 54 => ⟨S2000000x4, .f32⟩
  | 55 => ⟨S2000000x1, .f32⟩
  | 56 => ⟨S2000000x1, .f32⟩
  | 57 => ⟨S2000000x1, .f32⟩
  | 58 => ⟨S2000000x1, .f32⟩
  | 59 => ⟨S2000000x4, .f32⟩
  | 60 => ⟨S2000000x1, .f32⟩
  | 61 => ⟨S2000000x1, .f32⟩
  | 62 => ⟨S2000000x1, .f32⟩
  | 63 => ⟨S2000000x1, .f32⟩
  | 64 => ⟨S2000000x4, .f32⟩
  | 65 => ⟨S2000000x1x4, .f32⟩
  | 66 => ⟨S2000000x1x4, .f32⟩
  | 67 => ⟨S2000000x1x4, .f32⟩
  | 68 => ⟨S2000000x1x4, .f32⟩
  | 69 => ⟨S2000000x4x4, .f32⟩
  | 70 => ⟨S2000000, .f32⟩
  | 71 => ⟨S2000000, .f32⟩
  | 72 => ⟨S2000000x1, .f32⟩
  | 73 => ⟨S2000000x1, .f32⟩
  | 74 => ⟨S2000000x1, .f32⟩
  | 75 => ⟨S2000000x1, .f32⟩
  | 76 => ⟨S2000000x4, .f32⟩
  | 77 => ⟨S2000000x1, .f32⟩
  | 78 => ⟨S2000000x1, .f32⟩
  | 79 => ⟨S2000000x1, .f32⟩
  | 80 => ⟨S2000000x1, .f32⟩
  | 81 => ⟨S2000000x4, .f32⟩
  | 82 => ⟨S2000000x1, .f32⟩
  | 83 => ⟨S2000000x1, .f32⟩
  | 84 => ⟨S2000000x1, .f32⟩
  | 85 => ⟨S2000000x1, .f32⟩
  | 86 => ⟨S2000000x4, .f32⟩
  | 87 => ⟨S2000000x1, .f32⟩
  | 88 => ⟨S2000000x1, .f32⟩
  | 89 => ⟨S2000000x1, .f32⟩
  | 90 => ⟨S2000000x1, .f32⟩
  | 91 => ⟨S2000000x4, .f32⟩
  | 92 => ⟨S2000000x1x4, .f32⟩
  | 93 => ⟨S2000000x1x4, .f32⟩
  | 94 => ⟨S2000000x1x4, .f32⟩
  | 95 => ⟨S2000000x1x4, .f32⟩
  | 96 => ⟨S2000000x4x4, .f32⟩
  | 97 => ⟨S2000000, .f32⟩
  | 98 => ⟨S_, .f32⟩
  | 99 => ⟨S2000000, .f32⟩
  | 100 => ⟨S2000000, .f32⟩
  | 101 => ⟨S2000000, .f32⟩
  | 102 => ⟨S2000000, .f32⟩
  | 103 => ⟨S2000000x1, .f32⟩
  | 104 => ⟨S2000000x1, .f32⟩
  | 105 => ⟨S2000000x1, .f32⟩
  | 106 => ⟨S2000000x1, .f32⟩
  | 107 => ⟨S2000000x4, .f32⟩
  | 108 => ⟨S2000000x1, .f32⟩
  | 109 => ⟨S2000000x1, .f32⟩
  | 110 => ⟨S2000000x1, .f32⟩
  | 111 => ⟨S2000000x1, .f32⟩
  | 112 => ⟨S2000000x4, .f32⟩
  | 113 => ⟨S2000000x1, .f32⟩
  | 114 => ⟨S2000000x1, .f32⟩
  | 115 => ⟨S2000000x1, .f32⟩
  | 116 => ⟨S2000000x1, .f32⟩
  | 117 => ⟨S2000000x4, .f32⟩
  | 118 => ⟨S2000000x1, .f32⟩
  | 119 => ⟨S2000000x1, .f32⟩
  | 120 => ⟨S2000000x1, .f32⟩
  | 121 => ⟨S2000000x1, .f32⟩
  | 122 => ⟨S2000000x4, .f32⟩
  | 123 => ⟨S2000000x1x4, .f32⟩
  | 124 => ⟨S2000000x1x4, .f32⟩
  | 125 => ⟨S2000000x1x4, .f32⟩
  | 126 => ⟨S2000000x1x4, .f32⟩
  | 127 => ⟨S2000000x4x4, .f32⟩
  | _ => ⟨S2000000x7, .f32⟩

abbrev hbmTy0_1 (i : Nat) : BufTy := match i % 128 with
  | 0 => ⟨S2000000, .f32⟩
  | 1 => ⟨S2000000, .f32⟩
  | 2 => ⟨S2000000x1, .f32⟩
  | 3 => ⟨S2000000x1, .f32⟩
  | 4 => ⟨S2000000x1, .f32⟩
  | 5 => ⟨S2000000x1, .f32⟩
  | 6 => ⟨S2000000x4, .f32⟩
  | 7 => ⟨S2000000x1, .f32⟩
  | 8 => ⟨S2000000x1, .f32⟩
  | 9 => ⟨S2000000x1, .f32⟩
  | 10 => ⟨S2000000x1, .f32⟩
  | 11 => ⟨S2000000x4, .f32⟩
  | 12 => ⟨S2000000x1, .f32⟩
  | 13 => ⟨S2000000x1, .f32⟩
  | 14 => ⟨S2000000x1, .f32⟩
  | 15 => ⟨S2000000x1, .f32⟩
  | 16 => ⟨S2000000x4, .f32⟩
  | 17 => ⟨S2000000x1, .f32⟩
  | 18 => ⟨S2000000x1, .f32⟩
  | 19 => ⟨S2000000x1, .f32⟩
  | 20 => ⟨S2000000x1, .f32⟩
  | 21 => ⟨S2000000x4, .f32⟩
  | 22 => ⟨S2000000x1x4, .f32⟩
  | 23 => ⟨S2000000x1x4, .f32⟩
  | 24 => ⟨S2000000x1x4, .f32⟩
  | 25 => ⟨S2000000x1x4, .f32⟩
  | 26 => ⟨S2000000x4x4, .f32⟩
  | 27 => ⟨S2000000, .f32⟩
  | 28 => ⟨S_, .f32⟩
  | 29 => ⟨S2000000, .f32⟩
  | 30 => ⟨S2000000, .f32⟩
  | 31 => ⟨S2000000x1, .f32⟩
  | 32 => ⟨S2000000x1, .f32⟩
  | 33 => ⟨S2000000x1, .f32⟩
  | 34 => ⟨S2000000x1, .f32⟩
  | 35 => ⟨S2000000x4, .f32⟩
  | 36 => ⟨S2000000x1, .f32⟩
  | 37 => ⟨S2000000x1, .f32⟩
  | 38 => ⟨S2000000x1, .f32⟩
  | 39 => ⟨S2000000x1, .f32⟩
  | 40 => ⟨S2000000x4, .f32⟩
  | 41 => ⟨S2000000x1, .f32⟩
  | 42 => ⟨S2000000x1, .f32⟩
  | 43 => ⟨S2000000x1, .f32⟩
  | 44 => ⟨S2000000x1, .f32⟩
  | 45 => ⟨S2000000x4, .f32⟩
  | 46 => ⟨S2000000x1, .f32⟩
  | 47 => ⟨S2000000x1, .f32⟩
  | 48 => ⟨S2000000x1, .f32⟩
  | 49 => ⟨S2000000x1, .f32⟩
  | 50 => ⟨S2000000x4, .f32⟩
  | 51 => ⟨S2000000x1x4, .f32⟩
  | 52 => ⟨S2000000x1x4, .f32⟩
  | 53 => ⟨S2000000x1x4, .f32⟩
  | 54 => ⟨S2000000x1x4, .f32⟩
  | 55 => ⟨S2000000x4x4, .f32⟩
  | 56 => ⟨S2000000, .f32⟩
  | 57 => ⟨S2000000, .f32⟩
  | 58 => ⟨S2000000x1, .f32⟩
  | 59 => ⟨S2000000x1, .f32⟩
  | 60 => ⟨S2000000x1, .f32⟩
  | 61 => ⟨S2000000x1, .f32⟩
  | 62 => ⟨S2000000x4, .f32⟩
  | 63 => ⟨S2000000x1, .f32⟩
  | 64 => ⟨S2000000x1, .f32⟩
  | 65 => ⟨S2000000x1, .f32⟩
  | 66 => ⟨S2000000x1, .f32⟩
  | 67 => ⟨S2000000x4, .f32⟩
  | 68 => ⟨S2000000x1, .f32⟩
  | 69 => ⟨S2000000x1, .f32⟩
  | 70 => ⟨S2000000x1, .f32⟩
  | 71 => ⟨S2000000x1, .f32⟩
  | 72 => ⟨S2000000x4, .f32⟩
  | 73 => ⟨S2000000x1, .f32⟩
  | 74 => ⟨S2000000x1, .f32⟩
  | 75 => ⟨S2000000x1, .f32⟩
  | 76 => ⟨S2000000x1, .f32⟩
  | 77 => ⟨S2000000x4, .f32⟩
  | 78 => ⟨S2000000x1x4, .f32⟩
  | 79 => ⟨S2000000x1x4, .f32⟩
  | 80 => ⟨S2000000x1x4, .f32⟩
  | 81 => ⟨S2000000x1x4, .f32⟩
  | 82 => ⟨S2000000x4x4, .f32⟩
  | 83 => ⟨S2000000, .f32⟩
  | 84 => ⟨S2000000, .f32⟩
  | 85 => ⟨S2000000x1, .f32⟩
  | 86 => ⟨S2000000x1, .f32⟩
  | 87 => ⟨S2000000x1, .f32⟩
  | 88 => ⟨S2000000x1, .f32⟩
  | 89 => ⟨S2000000x4, .f32⟩
  | 90 => ⟨S2000000x1, .f32⟩
  | 91 => ⟨S2000000x1, .f32⟩
  | 92 => ⟨S2000000x1, .f32⟩
  | 93 => ⟨S2000000x1, .f32⟩
  | 94 => ⟨S2000000x4, .f32⟩
  | 95 => ⟨S2000000x1, .f32⟩
  | 96 => ⟨S2000000x1, .f32⟩
  | 97 => ⟨S2000000x1, .f32⟩
  | 98 => ⟨S2000000x1, .f32⟩
  | 99 => ⟨S2000000x4, .f32⟩
  | 100 => ⟨S2000000x1, .f32⟩
  | 101 => ⟨S2000000x1, .f32⟩
  | 102 => ⟨S2000000x1, .f32⟩
  | 103 => ⟨S2000000x1, .f32⟩
  | 104 => ⟨S2000000x4, .f32⟩
  | 105 => ⟨S2000000x1x4, .f32⟩
  | 106 => ⟨S2000000x1x4, .f32⟩
  | 107 => ⟨S2000000x1x4, .f32⟩
  | 108 => ⟨S2000000x1x4, .f32⟩
  | 109 => ⟨S2000000x4x4, .f32⟩
  | 110 => ⟨S2000000, .f32⟩
  | 111 => ⟨S_, .f32⟩
  | 112 => ⟨S2000000, .f32⟩
  | 113 => ⟨S2000000, .f32⟩
  | 114 => ⟨S2000000x1, .f32⟩
  | 115 => ⟨S2000000x1, .f32⟩
  | 116 => ⟨S2000000x1, .f32⟩
  | 117 => ⟨S2000000x1, .f32⟩
  | 118 => ⟨S2000000x4, .f32⟩
  | 119 => ⟨S2000000x1, .f32⟩
  | 120 => ⟨S2000000x1, .f32⟩
  | 121 => ⟨S2000000x1, .f32⟩
  | 122 => ⟨S2000000x1, .f32⟩
  | 123 => ⟨S2000000x4, .f32⟩
  | 124 => ⟨S2000000x1, .f32⟩
  | 125 => ⟨S2000000x1, .f32⟩
  | 126 => ⟨S2000000x1, .f32⟩
  | 127 => ⟨S2000000x1, .f32⟩
  | _ => ⟨S2000000x7, .f32⟩

abbrev hbmTy0_2 (i : Nat) : BufTy := match i % 128 with
  | 0 => ⟨S2000000x4, .f32⟩
  | 1 => ⟨S2000000x1, .f32⟩
  | 2 => ⟨S2000000x1, .f32⟩
  | 3 => ⟨S2000000x1, .f32⟩
  | 4 => ⟨S2000000x1, .f32⟩
  | 5 => ⟨S2000000x4, .f32⟩
  | 6 => ⟨S2000000x1x4, .f32⟩
  | 7 => ⟨S2000000x1x4, .f32⟩
  | 8 => ⟨S2000000x1x4, .f32⟩
  | 9 => ⟨S2000000x1x4, .f32⟩
  | 10 => ⟨S2000000x4x4, .f32⟩
  | 11 => ⟨S2000000x4x4, .f32⟩
  | 12 => ⟨S2000000x4x4, .f32⟩
  | 13 => ⟨S2000000x4x4, .f32⟩
  | 14 => ⟨S2000000x4x4, .f32⟩
  | 15 => ⟨S2000000x4x4, .f32⟩
  | 16 => ⟨S2000000x4x4, .f32⟩
  | 17 => ⟨S2000000x4x4, .f32⟩
  | 18 => ⟨S2000000x1x4x4, .f32⟩
  | 19 => ⟨S2000000x1x4x4, .f32⟩
  | 20 => ⟨S2000000x1x4x4, .f32⟩
  | 21 => ⟨S2000000x1x4x4, .f32⟩
  | 22 => ⟨S2000000x1x4x4, .f32⟩
  | 23 => ⟨S2000000x1x4x4, .f32⟩
  | 24 => ⟨S2000000x1x4x4, .f32⟩
  | 25 => ⟨S2000000x1x4x4, .f32⟩
  | 26 => ⟨S2000000x8x4x4, .f32⟩
  | _ => ⟨S2000000x7, .f32⟩

abbrev hbmTy (i : Nat) : BufTy := match i / 128 with
  | 0 => hbmTy0_0 i
  | 1 => hbmTy0_1 i
  | 2 => hbmTy0_2 i
  | _ => ⟨S2000000x7, .f32⟩

abbrev bufTy : (tb : Table) → Fin (tcTables nBuf tb) → BufTy
  | .hbm, ⟨i, _⟩ => hbmTy i
  | _, _ => ⟨S2000000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_2 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_3 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_cst_4 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_cst_5 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_cst_6 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_v239 : Ref sig .tc := ⟨.hbm, 248, rfl⟩
abbrev main_v240 : Ref sig .tc := ⟨.hbm, 249, rfl⟩
abbrev main_v241 : Ref sig .tc := ⟨.hbm, 250, rfl⟩
abbrev main_v242 : Ref sig .tc := ⟨.hbm, 251, rfl⟩
abbrev main_v243 : Ref sig .tc := ⟨.hbm, 252, rfl⟩
abbrev main_v244 : Ref sig .tc := ⟨.hbm, 253, rfl⟩
abbrev main_v245 : Ref sig .tc := ⟨.hbm, 254, rfl⟩
abbrev main_v246 : Ref sig .tc := ⟨.hbm, 255, rfl⟩
abbrev main_v247 : Ref sig .tc := ⟨.hbm, 256, rfl⟩
abbrev main_v248 : Ref sig .tc := ⟨.hbm, 257, rfl⟩
abbrev main_v249 : Ref sig .tc := ⟨.hbm, 258, rfl⟩
abbrev main_v250 : Ref sig .tc := ⟨.hbm, 259, rfl⟩
abbrev main_v251 : Ref sig .tc := ⟨.hbm, 260, rfl⟩
abbrev main_v252 : Ref sig .tc := ⟨.hbm, 261, rfl⟩
abbrev main_v253 : Ref sig .tc := ⟨.hbm, 262, rfl⟩
abbrev main_v254 : Ref sig .tc := ⟨.hbm, 263, rfl⟩
abbrev main_v255 : Ref sig .tc := ⟨.hbm, 264, rfl⟩
abbrev main_v256 : Ref sig .tc := ⟨.hbm, 265, rfl⟩
abbrev main_v257 : Ref sig .tc := ⟨.hbm, 266, rfl⟩
abbrev main_v258 : Ref sig .tc := ⟨.hbm, 267, rfl⟩
abbrev main_v259 : Ref sig .tc := ⟨.hbm, 268, rfl⟩
abbrev main_v260 : Ref sig .tc := ⟨.hbm, 269, rfl⟩
abbrev main_v261 : Ref sig .tc := ⟨.hbm, 270, rfl⟩
abbrev main_v262 : Ref sig .tc := ⟨.hbm, 271, rfl⟩
abbrev main_v263 : Ref sig .tc := ⟨.hbm, 272, rfl⟩
abbrev main_v264 : Ref sig .tc := ⟨.hbm, 273, rfl⟩
abbrev main_v265 : Ref sig .tc := ⟨.hbm, 274, rfl⟩
abbrev main_v266 : Ref sig .tc := ⟨.hbm, 275, rfl⟩
abbrev main_v267 : Ref sig .tc := ⟨.hbm, 276, rfl⟩
abbrev main_v268 : Ref sig .tc := ⟨.hbm, 277, rfl⟩
abbrev main_v269 : Ref sig .tc := ⟨.hbm, 278, rfl⟩
abbrev main_v270 : Ref sig .tc := ⟨.hbm, 279, rfl⟩
abbrev main_v271 : Ref sig .tc := ⟨.hbm, 280, rfl⟩
abbrev main_v272 : Ref sig .tc := ⟨.hbm, 281, rfl⟩
abbrev main_v273 : Ref sig .tc := ⟨.hbm, 282, rfl⟩

abbrev nD : Nat := 1
abbrev τ : Topo := Topo.v7x

variable {F : FTy → Type} [FloatOps F]

class Facts₀ : Prop where
  slices_S2000000x7_S2000000x1_0_0 : S2000000x7.Slices ![0, 0] S2000000x1
  shapeCasts_S2000000x1_S2000000 : S2000000x1.ShapeCasts S2000000
  bcast_S_S2000000 : S_.BroadcastsInDim S2000000 (![] : Fin 0 → Fin S2000000.rank)
  slices_S2000000x7_S2000000x1_0_1 : S2000000x7.Slices ![0, 1] S2000000x1
  slices_S2000000x7_S2000000x1_0_2 : S2000000x7.Slices ![0, 2] S2000000x1
  slices_S2000000x7_S2000000x1_0_3 : S2000000x7.Slices ![0, 3] S2000000x1
  slices_S2000000x7_S2000000x1_0_4 : S2000000x7.Slices ![0, 4] S2000000x1
  slices_S2000000x7_S2000000x1_0_5 : S2000000x7.Slices ![0, 5] S2000000x1
  slices_S2000000x7_S2000000x1_0_6 : S2000000x7.Slices ![0, 6] S2000000x1
  bcast_S2000000_S2000000x1_0 : S2000000.BroadcastsInDim S2000000x1 (![0] : Fin 1 → Fin S2000000x1.rank)
  concatenates_S2000000x1_S2000000x1_S2000000x1_S2000000x1_S2000000x4_d1 : Shape.Concatenates [S2000000x1, S2000000x1, S2000000x1, S2000000x1] S2000000x4 1
  bcast_S2000000x4_S2000000x1x4_0_2 : S2000000x4.BroadcastsInDim S2000000x1x4 (![0, 2] : Fin 2 → Fin S2000000x1x4.rank)
  concatenates_S2000000x1x4_S2000000x1x4_S2000000x1x4_S2000000x1x4_S2000000x4x4_d1 : Shape.Concatenates [S2000000x1x4, S2000000x1x4, S2000000x1x4, S2000000x1x4] S2000000x4x4 1
  bcast_S2000000x4x4_S2000000x1x4x4_0_2_3 : S2000000x4x4.BroadcastsInDim S2000000x1x4x4 (![0, 2, 3] : Fin 3 → Fin S2000000x1x4x4.rank)
  concatenates_S2000000x1x4x4_S2000000x1x4x4_S2000000x1x4x4_S2000000x1x4x4_S2000000x1x4x4_S2000000x1x4x4_S2000000x1x4x4_S2000000x1x4x4_S2000000x8x4x4_d1 : Shape.Concatenates [S2000000x1x4x4, S2000000x1x4x4, S2000000x1x4x4, S2000000x1x4x4, S2000000x1x4x4, S2000000x1x4x4, S2000000x1x4x4, S2000000x1x4x4] S2000000x8x4x4 1
  dot_S2000000x4x4_S2000000x4x4_S2000000x4x4_2_1_1_2_0_0_wf : DotDims.WF S2000000x4x4 S2000000x4x4 S2000000x4x4 [2] [1] [1] [2] [0] [0]

variable [Facts₀]

def dot_S2000000x4x4_S2000000x4x4_S2000000x4x4_2_1_1_2_0_0 : DotDims S2000000x4x4 S2000000x4x4 S2000000x4x4 where
  lhsContracting := [2]
  rhsContracting := [1]
  lhsNonContracting := [1]
  rhsNonContracting := [2]
  lhsBatch := [0]
  rhsBatch := [0]
  wf := dot_S2000000x4x4_S2000000x4x4_S2000000x4x4_2_1_1_2_0_0_wf

class Facts : Prop extends Facts₀ where

variable [Facts]
-- ==== Proof.FkSpec.lean ====
/-
  The chain of frames of a seven-joint arm, as one family over an abstract set of operations.

  A row of the input holds seven joint angles q0 … q6.  Each joint has a 4 × 4 local transform whose entries are
  0, 1, -1, a cosine or a sine of the joint's angle (shifted by a quarter turn for joints 2, 5 and 6), a negated
  one, or a link length times 1; an eighth, constant transform closes the chain.  Frame 0 is the first local
  transform and frame n + 1 is frame n times local transform n + 1, each entry of the product being the four-term
  sum  a0·b0 + a1·b1 + a2·b2 + a3·b3  associated from the left.

  The family is stated once over a record of operations, so that it can be read at whole vectors (one entry per
  row of a block or of the array) and at single extended reals; reading a vector at an index commutes with every
  operation, hence with the whole family.
-/
import Idealize.ShloMosaic.PureOps.Ideal.Laws
import Idealize.ShloMosaic.Lib.ValueIdx

noncomputable section

namespace Cert.Fk

open Idealize.ShloMosaic

/-- The operations and constants the frames are built from. -/
structure Alg (α : Type) where
  mul : α → α → α
  add : α → α → α
  sub : α → α → α
  neg : α → α
  cos : α → α
  sin : α → α
  zero : α
  one : α
  hpi : α
  k04 : α
  k039 : α
  k0118 : α

/-- The kinds of entry of a local transform: zero, one, minus one, the cosine or sine of joint `j`'s shifted angle,
    their negations, and the three link lengths (each times one). -/
inductive Ent where
  | z | o | no
  | c (j : Fin 7) | s (j : Fin 7) | nc (j : Fin 7) | ns (j : Fin 7)
  | k04 | k039 | k0118

open Ent in
/-- The eight local transforms, entry kinds row by row. -/
def tbl : Nat → Fin 4 → Fin 4 → Ent
  | 0 => ![![c 0, ns 0, z, z], ![s 0, c 0, z, z], ![z, z, o, z], ![z, z, z, o]]
  | 1 => ![![c 1, ns 1, z, z], ![z, z, no, z], ![s 1, c 1, z, z], ![z, z, z, o]]
  | 2 => ![![c 2, ns 2, z, z], ![z, z, o, k04], ![ns 2, nc 2, z, z], ![z, z, z, o]]
  | 3 => ![![c 3, ns 3, z, z], ![z, z, no, z], ![s 3, c 3, z, z], ![z, z, z, o]]
  | 4 => ![![nc 4, s 4, z, z], ![z, z, o, k039], ![s 4, c 4, z, z], ![z, z, z, o]]
  | 5 => ![![c 5, ns 5, z, z], ![z, z, no, z], ![s 5, c 5, z, z], ![z, z, z, o]]
  | 6 => ![![c 6, ns 6, z, z], ![z, z, no, z], ![s 6, c 6, z, z], ![z, z, z, o]]
  | 7 => ![![no, z, z, z], ![z, z, o, k0118], ![z, o, z, z], ![z, z, z, o]]
  | _ => fun _ _ => z

variable {α : Type}

/-- Joint `j`'s angle as its transform uses it: joints 2 and 6 turned back a quarter turn, joint 5 forward. -/
def th (A : Alg α) (q : Fin 7 → α) : Fin 7 → α
  | 0 => q 0
  | 1 => q 1
  | 2 => A.sub (q 2) A.hpi
  | 3 => q 3
  | 4 => q 4
  | 5 => A.add (q 5) A.hpi
  | 6 => A.sub (q 6) A.hpi

/-- An entry kind at the angles `q`. -/
def ent (A : Alg α) (q : Fin 7 → α) : Ent → α
  | .z => A.zero
  | .o => A.one
  | .no => A.neg A.one
  | .c j => A.cos (th A q j)
  | .s j => A.sin (th A q j)
  | .nc j => A.neg (A.cos (th A q j))
  | .ns j => A.neg (A.sin (th A q j))
  | .k04 => A.mul A.k04 A.one
  | .k039 => A.mul A.k039 A.one
  | .k0118 => A.mul A.k0118 A.one

/-- Frame `n` at the angles `q`, entry `(i, k)`. -/
def fr (A : Alg α) (q : Fin 7 → α) : Nat → Fin 4 → Fin 4 → α
  | 0 => fun i k => ent A q (tbl 0 i k)
  | n + 1 => fun i k =>
      A.add (A.add (A.add (A.mul (fr A q n i 0) (ent A q (tbl (n + 1) 0 k)))
                          (A.mul (fr A q n i 1) (ent A q (tbl (n + 1) 1 k))))
                   (A.mul (fr A q n i 2) (ent A q (tbl (n + 1) 2 k))))
            (A.mul (fr A q n i 3) (ent A q (tbl (n + 1) 3 k)))

/-! ## Two readings: whole vectors, and single extended reals -/

/-- Vectors of any shape with the pointwise operations, a negation `0 - x`, and splatted constants. -/
def vecAlg (F : FTy → Type) [FloatOps F] (s : Shape) : Alg (FVec F s .f32) where
  mul := mulf
  add := addf
  sub := subf
  neg := fun x => subf (broadcast s (Scalar.ofBits .f32 0x00000000#32)) x
  cos := Idealize.ShloMosaic.cos
  sin := Idealize.ShloMosaic.sin
  zero := broadcast s (Scalar.ofBits .f32 0x00000000#32)
  one := broadcast s (Scalar.ofBits .f32 0x3F800000#32)
  hpi := broadcast s (Scalar.ofBits .f32 0x3FC90FDB#32)
  k04 := broadcast s (Scalar.ofBits .f32 0x3ECCCCCD#32)
  k039 := broadcast s (Scalar.ofBits .f32 0x3EC7AE14#32)
  k0118 := broadcast s (Scalar.ofBits .f32 0x3DF1A9FC#32)

/-- Extended reals, negation written `0 - x` (a kernel's spelling). -/
def subAlg : Alg EReal where
  mul := fun x y => x * y
  add := fun x y => x + y
  sub := fun x y => x - y
  neg := fun x => Ideal.ofBits .f32 0x00000000#32 - x
  cos := Ideal.cos
  sin := Ideal.sin
  zero := Ideal.ofBits .f32 0x00000000#32
  one := Ideal.ofBits .f32 0x3F800000#32
  hpi := Ideal.ofBits .f32 0x3FC90FDB#32
  k04 := Ideal.ofBits .f32 0x3ECCCCCD#32
  k039 := Ideal.ofBits .f32 0x3EC7AE14#32
  k0118 := Ideal.ofBits .f32 0x3DF1A9FC#32

/-- Extended reals, negation the negation. -/
def negAlg : Alg EReal where
  mul := fun x y => x * y
  add := fun x y => x + y
  sub := fun x y => x - y
  neg := fun x => -x
  cos := Ideal.cos
  sin := Ideal.sin
  zero := Ideal.ofBits .f32 0x00000000#32
  one := Ideal.ofBits .f32 0x3F800000#32
  hpi := Ideal.ofBits .f32 0x3FC90FDB#32
  k04 := Ideal.ofBits .f32 0x3ECCCCCD#32
  k039 := Ideal.ofBits .f32 0x3EC7AE14#32
  k0118 := Ideal.ofBits .f32 0x3DF1A9FC#32

/-- On the extended reals `0 - x` is `-x` for every `x`, the infinities included: the two readings are one. -/
theorem subAlg_eq_negAlg : subAlg = negAlg := by
  unfold subAlg negAlg
  congr 1
  funext x
  rw [Ideal.ofBits_zero_f32, sub_eq_add_neg, zero_add]

/-- A shifted angle of vectors, read at an index. -/
theorem th_apply {s : Shape} (a : Fin 7 → FVec Ideal s .f32) (j : Fin 7) (idx : s.Idx) :
    th (vecAlg Ideal s) a j idx = th subAlg (fun j => a j idx) j := by
  fin_cases j <;> rfl

/-- An entry of vectors, read at an index. -/
theorem ent_apply {s : Shape} (a : Fin 7 → FVec Ideal s .f32) (e : Ent) (idx : s.Idx) :
    ent (vecAlg Ideal s) a e idx = ent subAlg (fun j => a j idx) e := by
  cases e with
  | z => rfl
  | o => rfl
  | no => rfl
  | c j => exact congrArg Ideal.cos (th_apply a j idx)
  | s j => exact congrArg Ideal.sin (th_apply a j idx)
  | nc j => exact congrArg (fun t => Ideal.ofBits .f32 0x00000000#32 - Ideal.cos t) (th_apply a j idx)
  | ns j => exact congrArg (fun t => Ideal.ofBits .f32 0x00000000#32 - Ideal.sin t) (th_apply a j idx)
  | k04 => rfl
  | k039 => rfl
  | k0118 => rfl

/-- A frame of vectors, read at an index, is the frame of the angles read there. -/
theorem fr_apply {s : Shape} (a : Fin 7 → FVec Ideal s .f32) (idx : s.Idx) :
    ∀ (n : Nat) (i k : Fin 4), fr (vecAlg Ideal s) a n i k idx = fr subAlg (fun j => a j idx) n i k
  | 0, i, k => ent_apply a _ idx
  | n + 1, i, k => by
    show fr (vecAlg Ideal s) a n i 0 idx * ent (vecAlg Ideal s) a (tbl (n + 1) 0 k) idx
        + fr (vecAlg Ideal s) a n i 1 idx * ent (vecAlg Ideal s) a (tbl (n + 1) 1 k) idx
        + fr (vecAlg Ideal s) a n i 2 idx * ent (vecAlg Ideal s) a (tbl (n + 1) 2 k) idx
        + fr (vecAlg Ideal s) a n i 3 idx * ent (vecAlg Ideal s) a (tbl (n + 1) 3 k) idx = _
    rw [fr_apply a idx n i 0, fr_apply a idx n i 1, fr_apply a idx n i 2, fr_apply a idx n i 3,
      ent_apply, ent_apply, ent_apply, ent_apply]
    rfl

/-! ## A block of the output: 128 columns, one per frame entry -/

section Block
variable {F : FTy → Type} [FloatOps F] {n : Nat}

/-- Column `c` of a block of `n` rows, as an `n × 1` column: entry `(c / 4 mod 4, c mod 4)` of frame `c / 16`, over the
    angle vectors `a` (one entry per row). -/
def colv (a : Fin 7 → FVec F ⟨1, ![n]⟩ .f32) (hc : (⟨1, ![n]⟩ : Shape).ShapeCasts ⟨2, ![n, 1]⟩) (c : Fin 128) :
    (⟨2, ![n, 1]⟩ : Shape).Idx → F .f32 :=
  shapeCast ⟨2, ![n, 1]⟩
    (fr (vecAlg F ⟨1, ![n]⟩) a (c.val / 16) ⟨c.val / 4 % 4, Nat.mod_lt _ (by decide)⟩ ⟨c.val % 4, Nat.mod_lt _ (by decide)⟩) hc

/-- The 128 columns in order. -/
def pieces (a : Fin 7 → FVec F ⟨1, ![n]⟩ .f32) (hc : (⟨1, ![n]⟩ : Shape).ShapeCasts ⟨2, ![n, 1]⟩) :
    List ((s : Shape) × (s.Idx → F .f32)) :=
  List.ofFn fun c : Fin 128 => ⟨⟨2, ![n, 1]⟩, colv a hc c⟩

/-- The block: the columns joined along axis 1. -/
def payload (a : Fin 7 → FVec F ⟨1, ![n]⟩ .f32) (hc : (⟨1, ![n]⟩ : Shape).ShapeCasts ⟨2, ![n, 1]⟩)
    (H : Shape.Concatenates ((pieces a hc).map (·.1)) ⟨2, ![n, 128]⟩ 1) : (⟨2, ![n, 128]⟩ : Shape).Idx → F .f32 :=
  concatenate ⟨2, ![n, 128]⟩ 1 (pieces a hc) H

end Block

end Cert.Fk

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.FkBlock.lean ====
/-
  A block of the output read at an index.  The block is 128 columns side by side, column `c` holding entry
  `(c / 4 mod 4, c mod 4)` of frame `c / 16`; read at row `r`, column `c`, it is that entry of that frame at the seven
  angles of row `r`.
-/
import proofs.«110546_j71622874628546_2_alg».proof.Proof.FkSpec
import proofs.«110546_j71622874628546_2_alg».proof.Proof.LibKeepdims
import Idealize.ShloMosaic.Lib.Pipeline.Value

noncomputable section

namespace Cert.Fk

open Idealize.ShloMosaic Idealize.ShloMosaic.ValueIdx

/-- The frame entry a column number names: entry `(c / 4 mod 4, c mod 4)` of frame `c / 16`, at the angles `q`. -/
def frc (A : Alg EReal) (q : Fin 7 → EReal) (c : Nat) : EReal :=
  fr A q (c / 16) ⟨c / 4 % 4, Nat.mod_lt _ (by decide)⟩ ⟨c % 4, Nat.mod_lt _ (by decide)⟩

/-- Column `16 f + 4 i + k` names entry `(i, k)` of frame `f`. -/
theorem frc_at (A : Alg EReal) (q : Fin 7 → EReal) (f : Fin 8) (i k : Fin 4) :
    frc A q (16 * f.val + 4 * i.val + k.val) = fr A q f.val i k := by
  have hi := i.isLt
  have hk := k.isLt
  have h1 : (16 * f.val + 4 * i.val + k.val) / 16 = f.val := by omega
  have h2 : (16 * f.val + 4 * i.val + k.val) / 4 % 4 = i.val := by omega
  have h3 : (16 * f.val + 4 * i.val + k.val) % 4 = k.val := by omega
  unfold frc
  congr 1
  · exact Fin.ext h2
  · exact Fin.ext h3

/-- The same angles and the same column number name the same entry. -/
theorem frc_congr {A : Alg EReal} {q q' : Fin 7 → EReal} {c c' : Nat} (hq : q = q') (hc : c = c') : frc A q c = frc A q' c' := by
  subst hq; subst hc; rfl

/-- The block at row `r`, column `c`. -/
theorem payload_apply {n : Nat} (a : Fin 7 → FVec Ideal ⟨1, ![n]⟩ .f32) (hc : (⟨1, ![n]⟩ : Shape).ShapeCasts ⟨2, ![n, 1]⟩)
    (H : Shape.Concatenates ((pieces a hc).map (·.1)) ⟨2, ![n, 128]⟩ 1) (r : Fin n) (c : Fin 128) :
    payload a hc H (ix2 r c) = frc subAlg (fun j => a j (ix1 r)) c.val := by
  refine (concatenate_ofFn_unit_apply (t := ⟨2, ![n, 128]⟩) (s₁ := ⟨2, ![n, 1]⟩) (1 : Fin 2)
      (fun c : Fin 128 => colv a hc c) H rfl rfl (ix2 r c) c rfl (ix2 r (0 : Fin 1))
      (fun b hb => by
        match b with
        | ⟨0, _⟩ => rfl
        | ⟨1, _⟩ => exact absurd rfl hb)).trans ?_
  exact (shapeCast_a_a1_apply _ hc r 0).trans (fr_apply a (ix1 r) _ _ _)

end Cert.Fk

end
-- ==== Proof.LibColumn.lean ====
/-
  A column of a matrix read as a vector: the `n × 1` slice of an `n × w` array at column `j`, cast to a length-`n`
  vector, holds at `b` the array's entry `(b, j)`.  Any sizes, any element type.
-/
import Idealize.ShloMosaic.Lib.Pipeline.Value
import Idealize.ShloMosaic.Lib.ValueIdx

namespace Idealize.ShloMosaic.ValueIdx

variable {α : Type}

/-- An `[n, 1]` column cast to `[n]` reads, at `b`, the column at `(b, 0)`. -/
theorem shapeCast_a1_a_apply {n : ℕ} (x : (⟨2, ![n, 1]⟩ : Shape).Idx → α) (h : (⟨2, ![n, 1]⟩ : Shape).ShapeCasts ⟨1, ![n]⟩)
    (b : Fin n) : shapeCast ⟨1, ![n]⟩ x h (ix1 b) = x (ix2 b (0 : Fin 1)) :=
  shapeCast_apply x h _ _ (by
    rw [Shape.rowMajor_val_two, Shape.rowMajor_val_one]
    show b.val * 1 + 0 = b.val
    rw [Nat.mul_one, Nat.add_zero])

/-- Column `j` of an `n × w` array, sliced out and cast to a vector, reads at `b` the array's entry `(b, j)`. -/
theorem shapeCast_slice_col_apply {n w : ℕ} (x : (⟨2, ![n, w]⟩ : Shape).Idx → α) (j : Fin w)
    (hs : (⟨2, ![n, w]⟩ : Shape).Slices ![0, j.val] ⟨2, ![n, 1]⟩) (hc : (⟨2, ![n, 1]⟩ : Shape).ShapeCasts ⟨1, ![n]⟩)
    (b : Fin n) :
    shapeCast ⟨1, ![n]⟩ (extractStridedSlice ⟨2, ![n, 1]⟩ ![0, j.val] x hs) hc (ix1 b) = x (ix2 b j) :=
  (shapeCast_a1_a_apply _ hc b).trans
    (extractStridedSlice_apply _ x hs _ _ fun a => by
      match a with
      | ⟨0, _⟩ => exact (Nat.zero_add _).symm
      | ⟨1, _⟩ => rfl)

end Idealize.ShloMosaic.ValueIdx
-- ==== Proof.KernelBlock.lean ====
/-
  What the kernel body leaves in its output block, read at an index: at row `r`, column `c` of the 2000 × 128 block,
  entry `(c / 4 mod 4, c mod 4)` of frame `c / 16` at the seven angles in row `r` of the 2000 × 7 input block.
-/
import proofs.«110546_j71622874628546_2_alg».proof.Proof.FrameKernelIdeal
import proofs.«110546_j71622874628546_2_alg».proof.Proof.FkBlock
import proofs.«110546_j71622874628546_2_alg».proof.Proof.LibColumn

noncomputable section

namespace Cert.KernelIdeal.BlockValue

open Cert.KernelIdeal Cert.KernelIdeal.Gen Cert.KernelIdeal.GenP
open Idealize.ShloMosaic Idealize.ShloMosaic.TcCoe Idealize.ShloMosaic.ValueIdx Idealize.ShloMosaic.Pipeline Cert.Fk

theorem hz : (![0, 0] : Fin 2 → Nat) = fun _ => 0 := funext fun a => by fin_cases a <;> rfl

/-- The angle columns of a block at a row are the block's entries of that row. -/
theorem angs_apply (v0 : Vec Ideal S2000x7 .f32) (r : Fin 2000) :
    (fun j => angs v0 j (ix1 r)) = fun j => v0 (ix2 r j) := by
  funext j
  match j with
  | 0 => exact shapeCast_slice_col_apply v0 0 slices_S2000x7_o0_0_S2000x1 shapeCasts_S2000x1_S2000 r
  | 1 => exact shapeCast_slice_col_apply v0 1 slices_S2000x7_o0_1_S2000x1 shapeCasts_S2000x1_S2000 r
  | 2 => exact shapeCast_slice_col_apply v0 2 slices_S2000x7_o0_2_S2000x1 shapeCasts_S2000x1_S2000 r
  | 3 => exact shapeCast_slice_col_apply v0 3 slices_S2000x7_o0_3_S2000x1 shapeCasts_S2000x1_S2000 r
  | 4 => exact shapeCast_slice_col_apply v0 4 slices_S2000x7_o0_4_S2000x1 shapeCasts_S2000x1_S2000 r
  | 5 => exact shapeCast_slice_col_apply v0 5 slices_S2000x7_o0_5_S2000x1 shapeCasts_S2000x1_S2000 r
  | 6 => exact shapeCast_slice_col_apply v0 6 slices_S2000x7_o0_6_S2000x1 shapeCasts_S2000x1_S2000 r

/-- The output block at row `r`, column `c`. -/
theorem out0_1_apply (x0 : Vec Ideal S2000x7 .f32) (r : Fin 2000) (c : Fin 128) :
    out0_1 x0 (ix2 r c) = frc subAlg (fun j => x0 (ix2 r j)) c.val := by
  unfold out0_1
  rw [View.canon_unit_zero hz]
  refine (payload_apply (angs (View.ld x0 r0_0)) shapeCasts_S2000_S2000x1 _ r c).trans ?_
  rw [angs_apply, View.ld_unit_zero hz]

/-- The same at any index of the block, the coordinates read off the index. -/
theorem block_at (x0 : Vec Ideal S2000x7 .f32) (y : S2000x128.Idx) :
    out0_1 x0 y = frc subAlg (fun j => x0 (ix2 (⟨(y 0).val, (y 0).isLt⟩ : Fin 2000) j)) (y 1).val := by
  have hy : y = ix2 (⟨(y 0).val, (y 0).isLt⟩ : Fin 2000) (⟨(y 1).val, (y 1).isLt⟩ : Fin 128) := eq_ix2 y
  conv_lhs => rw [hy]
  exact out0_1_apply x0 _ _

end Cert.KernelIdeal.BlockValue

end
-- ==== Proof.FkResult.lean ====
/-
  The result both programs compute, as one function of the input array: at `(b, f, i, k)` entry `(i, k)` of frame `f`
  at the seven angles in row `b` of the input.
-/
import proofs.«110546_j71622874628546_2_alg».proof.Proof.FkSpec

noncomputable section

namespace Cert.Fk

open Idealize.ShloMosaic Idealize.ShloMosaic.ValueIdx

/-- The stack of the eight frames of every row. -/
def result (x : (⟨2, ![2000000, 7]⟩ : Shape).Idx → EReal) : (⟨4, ![2000000, 8, 4, 4]⟩ : Shape).Idx → EReal :=
  fun j => fr negAlg (fun a => x (ix2 (⟨(j 0).val, (j 0).isLt⟩ : Fin 2000000) a)) (j 1).val
    (⟨(j 2).val, (j 2).isLt⟩ : Fin 4) (⟨(j 3).val, (j 3).isLt⟩ : Fin 4)

theorem result_apply (x : (⟨2, ![2000000, 7]⟩ : Shape).Idx → EReal) (b : Fin 2000000) (f : Fin 8) (i k : Fin 4) :
    result x (ix4 b f i k) = fr negAlg (fun a => x (ix2 b a)) f.val i k := rfl

end Cert.Fk

end
-- ==== Proof.KernelArray.lean ====
/-
  From blocks to the array, and the kernel's result.

  Grid point `t` reads rows `2000 t … 2000 t + 1999` of the input and writes the same rows of the 2 000 000 × 128
  output array, so row `b` of the output is written at point `b / 2000` and holds, in column `c`, entry
  `(c / 4 mod 4, c mod 4)` of frame `c / 16` at the angles in row `b` of the input.  The host then reads the 128
  columns of a row as 8 × 4 × 4: column `16 f + 4 i + k` is entry `(i, k)` of frame `f`.
-/
import proofs.«110546_j71622874628546_2_alg».proof.Proof.KernelBlock
import proofs.«110546_j71622874628546_2_alg».proof.Proof.FkResult
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Cert.KernelIdeal.GenP Cert.KernelIdeal.BlockValue
open Idealize.ShloMosaic Idealize.ShloMosaic.TcCoe Idealize.ShloMosaic.ValueIdx Idealize.ShloMosaic.Pipeline Cert.Fk
open Idealize.SL.Sem

variable (m : (ℓ : Loc nD τ sig) → Buf (Elt Ideal) ℓ) (ρ : Dev nD → PrngReg)

/-- The output array as a function of the input array: row `b`, column `c`. -/
def arr (x : S2000000x7.Idx → EReal) : S2000000x128.Idx → EReal :=
  fun i => frc subAlg (fun j => x (ix2 (⟨(i 0).val, (i 0).isLt⟩ : Fin 2000000) j)) (i 1).val

/-- The index maps, decided over the grid: both windows move down one block of rows per point and stay at column
    block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- What point `t` writes back is block `t` of `arr` of the input array as the region finds it. -/
theorem flushed1_eq (c : Dev nD) (t : Fin cfg0.N) :
    (dats m 0 c).flushed 1 t = ((cfg0.win 1).blk t).view.read (Elt Ideal) (arr (V m c main_arg0)) := by
  show (cfg0.win 1).cut (grid0.coords t) ((dats m 0 c).after 1 t) = _
  rw [after0_1]
  obtain ⟨e0, e1, e2, e3⟩ := idx_facts t
  funext y
  show out0_1 (iblk m c 0 t) y = arr (V m c main_arg0) (((cfg0.win 1).blk t).view.emb y)
  rw [block_at]
  unfold arr
  refine frc_congr (funext fun j => ?_) ?_
  · show V m c main_arg0 (((cfg0.win 0).blk t).view.emb (ix2 (⟨(y 0).val, (y 0).isLt⟩ : Fin 2000) j)) = _
    refine congrArg (V m c main_arg0) (funext fun a => Fin.ext ?_)
    match a with
    | ⟨0, _⟩ =>
      show win0_0.index t (0 : Fin 2) * 2000 + 1 * (y 0).val = win0_1.index t (0 : Fin 2) * 2000 + 1 * (y 0).val
      omega
    | ⟨1, _⟩ =>
      show win0_0.index t (1 : Fin 2) * 7 + 1 * j.val = j.val
      omega
  · show (y 1).val = win0_1.index t (1 : Fin 2) * 128 + 1 * (y 1).val
    omega

/-- An index of the array is in point `t`'s block iff each coordinate is in the block's range on its axis. -/
theorem mem_blk1 (t : Fin cfg0.N) (i : S2000000x128.Idx) :
    i ∈ ((cfg0.win 1).blk t).view.set ↔ ∀ a : Fin 2, win0_1.index t a * S2000x128.size a ≤ (i a).val
      ∧ (i a).val < win0_1.index t a * S2000x128.size a + S2000x128.size a := by
  show i ∈ ((View.whole main_v0).slice (win0_1.rect t)).set ↔ _
  rw [View.set_slice_whole, Rect.mem_set_unit]
  exact Iff.rfl

/-- Every index of the array is in some point's block: row `b` in the block of point `b / 2000`. -/
theorem cover1 (i : S2000000x128.Idx) :
    ∃ t : Fin cfg0.N, (cfg0.win 1).flush t = true ∧ i ∈ ((cfg0.win 1).blk t).view.set := by
  have hi0 : (i 0).val < 2000000 := (i 0).isLt
  have hi1 : (i 1).val < 128 := (i 1).isLt
  have hN : cfg0.N = 1000 := N_0
  have ht : (i 0).val / 2000 < cfg0.N := by rw [hN]; omega
  obtain ⟨e0, e1, e2, e3⟩ := idx_facts ⟨(i 0).val / 2000, ht⟩
  refine ⟨⟨(i 0).val / 2000, ht⟩, flush0_1 _, ?_⟩
  rw [mem_blk1]
  intro a
  match a with
  | ⟨0, _⟩ =>
    show win0_1.index ⟨(i 0).val / 2000, ht⟩ (0 : Fin 2) * 2000 ≤ (i 0).val
      ∧ (i 0).val < win0_1.index ⟨(i 0).val / 2000, ht⟩ (0 : Fin 2) * 2000 + 2000
    have e2' : win0_1.index ⟨(i 0).val / 2000, ht⟩ (0 : Fin 2) = (i 0).val / 2000 := e2
    omega
  | ⟨1, _⟩ =>
    show win0_1.index ⟨(i 0).val / 2000, ht⟩ (1 : Fin 2) * 128 ≤ (i 1).val
      ∧ (i 1).val < win0_1.index ⟨(i 0).val / 2000, ht⟩ (1 : Fin 2) * 128 + 128
    omega

/-- The output array after the region. -/
theorem final1 (c : Dev nD) : (dats m 0 c).arrAt 1 cfg0.N = arr (V m c main_arg0) :=
  (dats m 0 c).arrAt_eq_of_cover 1 (arr (V m c main_arg0)) (fun t _ => flushed1_eq m c t) cover1

/-- The 128 columns of a row read as 8 × 4 × 4 are the eight frames of the row's angles. -/
theorem reshape_arr (x : S2000000x7.Idx → EReal) :
    shapeCast S2000000x8x4x4 (arr x) shapeCasts_S2000000x128_S2000000x8x4x4 = result x := by
  funext j
  obtain ⟨b, f, i, k, rfl⟩ : ∃ (b : Fin 2000000) (f : Fin 8) (i k : Fin 4), j = ix4 b f i k :=
    ⟨j 0, j 1, j 2, j 3, eq_ix4 j⟩
  rw [result_apply, ← subAlg_eq_negAlg, ← frc_at]
  have hf := f.isLt
  have hi := i.isLt
  have hk := k.isLt
  have hc : 16 * f.val + 4 * i.val + k.val < 128 := by omega
  exact shapeCast_apply (arr x) _ (ix4 b f i k) (ix2 b (⟨16 * f.val + 4 * i.val + k.val, hc⟩ : Fin 128)) (by
    rw [Shape.rowMajor_val_two, Shape.rowMajor_val_four]
    show b.val * 128 + (16 * f.val + 4 * i.val + k.val) = ((b.val * 8 + f.val) * 4 + i.val) * 4 + k.val
    omega)

/-- The host operation after the region: the result buffer holds the output array reshaped. -/
theorem tail_eq (c : Dev nD) :
    Pipeline.afterTail₀ cfgs (dats m) 0 (V0 m) [hostOps1] c main_v1
      = shapeCast S2000000x8x4x4 (arr (V m c main_arg0)) shapeCasts_S2000000x128_S2000000x8x4x4 := by
  unfold Pipeline.afterTail₀
  show StableHlo.after hostOps1 _ (Proc.devRef .tc main_v1) = _
  after_results
  rw [Pipeline.withArrays_arr spec0 launch0.win.arr_inj c _ _ 1, final1]
  rfl

/-- The kernel's run: the result buffer ends at the common result function of the input array, the input unchanged. -/
theorem run : θ_run defs (onTc (τ := τ) (main (F := Ideal))) ⟨m, fun _ => 0, ρ⟩ fun r => ∀ c : Dev nD,
      r.2.mem ((c.tc : Thread nD τ).loc main_v1) = result (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v1 (by decide)).trans ((tail_eq m c).trans (reshape_arr _)),
       ((h c).1 0).trans (((dats m 0 c).arrAt_in 0 rfl _).trans ((A_eq m c 0).trans (V_main_arg0 m c)))⟩)
    (run_main m ρ)

end Cert.KernelIdeal.ArrayValue

end
-- ==== Proof.LibStack.lean ====
/-
  Arrays assembled by stacking, read at an index given by coordinates.  Any row count `n`, any element type.

  * four length-`n` vectors set side by side as the columns of an `n × 4` array (each made an `n × 1` column, then
    joined along axis 1): entry `(b, k)` is the `k`-th vector at `b` (`cat4_cols_apply`);
  * four `n × 4` arrays stacked as the rows of an `n × 4 × 4` array (each given a unit axis 1, then joined along it):
    entry `(b, j, k)` is the `j`-th array at `(b, k)` (`cat4_rows_apply`);
  * eight `n × 4 × 4` arrays stacked along a new axis 1 into `n × 8 × 4 × 4`: entry `(b, f, i, k)` is the `f`-th
    array at `(b, i, k)` (`cat8_apply`).
-/
import Idealize.ShloMosaic.Lib.Pipeline.Value
import Idealize.ShloMosaic.Lib.ValueIdx

namespace Idealize.ShloMosaic.ValueIdx

variable {α : Type}

/-- A length-`n` vector made an `n × 1` column reads, at `(b, u)`, the vector at `b`. -/
theorem broadcastInDim_a_a1_apply {n : ℕ} (x : (⟨1, ![n]⟩ : Shape).Idx → α)
    (h : (⟨1, ![n]⟩ : Shape).BroadcastsInDim ⟨2, ![n, 1]⟩ ![0]) (b : Fin n) (u : Fin 1) :
    broadcastInDim ⟨2, ![n, 1]⟩ ![0] h x (ix2 b u) = x (ix1 b) :=
  broadcastInDim_apply ![0] h x _ _ fun a => by
    match a with
    | ⟨0, _⟩ =>
      show b.val = if n = 1 then 0 else b.val
      split
      · have := b.isLt; omega
      · rfl

/-- An `n × 4` array given a unit axis 1 reads, at `(b, u, k)`, the array at `(b, k)`. -/
theorem broadcastInDim_a4_a14_apply {n : ℕ} (x : (⟨2, ![n, 4]⟩ : Shape).Idx → α)
    (h : (⟨2, ![n, 4]⟩ : Shape).BroadcastsInDim ⟨3, ![n, 1, 4]⟩ ![0, 2]) (b : Fin n) (u : Fin 1) (k : Fin 4) :
    broadcastInDim ⟨3, ![n, 1, 4]⟩ ![0, 2] h x (ix3 b u k) = x (ix2 b k) :=
  broadcastInDim_apply ![0, 2] h x _ _ fun a => by
    match a with
    | ⟨0, _⟩ =>
      show b.val = if n = 1 then 0 else b.val
      split
      · have := b.isLt; omega
      · rfl
    | ⟨1, _⟩ => rfl

/-- An `n × 4 × 4` array given a unit axis 1 reads, at `(b, u, i, k)`, the array at `(b, i, k)`. -/
theorem broadcastInDim_a44_a144_apply {n : ℕ} (x : (⟨3, ![n, 4, 4]⟩ : Shape).Idx → α)
    (h : (⟨3, ![n, 4, 4]⟩ : Shape).BroadcastsInDim ⟨4, ![n, 1, 4, 4]⟩ ![0, 2, 3]) (b : Fin n) (u : Fin 1) (i k : Fin 4) :
    broadcastInDim ⟨4, ![n, 1, 4, 4]⟩ ![0, 2, 3] h x (ix4 b u i k) = x (ix3 b i k) :=
  broadcastInDim_apply ![0, 2, 3] h x _ _ fun a => by
    match a with
    | ⟨0, _⟩ =>
      show b.val = if n = 1 then 0 else b.val
      split
      · have := b.isLt; omega
      · rfl
    | ⟨1, _⟩ => rfl
    | ⟨2, _⟩ => rfl

/-- Four vectors as the columns of an `n × 4` array: entry `(b, k)` is vector `k` at `b`. -/
theorem cat4_cols_apply {n : ℕ} (e : Fin 4 → (⟨1, ![n]⟩ : Shape).Idx → α)
    (hb : (⟨1, ![n]⟩ : Shape).BroadcastsInDim ⟨2, ![n, 1]⟩ ![0])
    (hc : Shape.Concatenates [⟨2, ![n, 1]⟩, ⟨2, ![n, 1]⟩, ⟨2, ![n, 1]⟩, ⟨2, ![n, 1]⟩] ⟨2, ![n, 4]⟩ 1) (b : Fin n) (k : Fin 4) :
    concatenate ⟨2, ![n, 4]⟩ 1
      [⟨⟨2, ![n, 1]⟩, broadcastInDim ⟨2, ![n, 1]⟩ ![0] hb (e 0)⟩, ⟨⟨2, ![n, 1]⟩, broadcastInDim ⟨2, ![n, 1]⟩ ![0] hb (e 1)⟩,
       ⟨⟨2, ![n, 1]⟩, broadcastInDim ⟨2, ![n, 1]⟩ ![0] hb (e 2)⟩, ⟨⟨2, ![n, 1]⟩, broadcastInDim ⟨2, ![n, 1]⟩ ![0] hb (e 3)⟩] hc (ix2 b k)
      = e k (ix1 b) := by
  show concatenate ⟨2, ![n, 4]⟩ 1 (List.ofFn fun k : Fin 4 =>
    (⟨⟨2, ![n, 1]⟩, broadcastInDim ⟨2, ![n, 1]⟩ ![0] hb (e k)⟩ : (s : Shape) × (s.Idx → α))) hc (ix2 b k) = _
  exact (concatenate_ofFn_unit_apply (t := ⟨2, ![n, 4]⟩) (s₁ := ⟨2, ![n, 1]⟩) (1 : Fin 2)
      (fun k : Fin 4 => broadcastInDim ⟨2, ![n, 1]⟩ ![0] hb (e k)) hc rfl rfl (ix2 b k) k rfl (ix2 b (0 : Fin 1))
      (fun a ha => by
        match a with
        | ⟨0, _⟩ => rfl
        | ⟨1, _⟩ => exact absurd rfl ha)).trans
    (broadcastInDim_a_a1_apply (e k) hb b 0)

/-- Four `n × 4` arrays as the rows of an `n × 4 × 4` array: entry `(b, j, k)` is array `j` at `(b, k)`. -/
theorem cat4_rows_apply {n : ℕ} (e : Fin 4 → (⟨2, ![n, 4]⟩ : Shape).Idx → α)
    (hb : (⟨2, ![n, 4]⟩ : Shape).BroadcastsInDim ⟨3, ![n, 1, 4]⟩ ![0, 2])
    (hc : Shape.Concatenates [⟨3, ![n, 1, 4]⟩, ⟨3, ![n, 1, 4]⟩, ⟨3, ![n, 1, 4]⟩, ⟨3, ![n, 1, 4]⟩] ⟨3, ![n, 4, 4]⟩ 1)
    (b : Fin n) (j k : Fin 4) :
    concatenate ⟨3, ![n, 4, 4]⟩ 1
      [⟨⟨3, ![n, 1, 4]⟩, broadcastInDim ⟨3, ![n, 1, 4]⟩ ![0, 2] hb (e 0)⟩, ⟨⟨3, ![n, 1, 4]⟩, broadcastInDim ⟨3, ![n, 1, 4]⟩ ![0, 2] hb (e 1)⟩,
       ⟨⟨3, ![n, 1, 4]⟩, broadcastInDim ⟨3, ![n, 1, 4]⟩ ![0, 2] hb (e 2)⟩, ⟨⟨3, ![n, 1, 4]⟩, broadcastInDim ⟨3, ![n, 1, 4]⟩ ![0, 2] hb (e 3)⟩] hc
      (ix3 b j k) = e j (ix2 b k) := by
  show concatenate ⟨3, ![n, 4, 4]⟩ 1 (List.ofFn fun j : Fin 4 =>
    (⟨⟨3, ![n, 1, 4]⟩, broadcastInDim ⟨3, ![n, 1, 4]⟩ ![0, 2] hb (e j)⟩ : (s : Shape) × (s.Idx → α))) hc (ix3 b j k) = _
  exact (concatenate_ofFn_unit_apply (t := ⟨3, ![n, 4, 4]⟩) (s₁ := ⟨3, ![n, 1, 4]⟩) (1 : Fin 3)
      (fun j : Fin 4 => broadcastInDim ⟨3, ![n, 1, 4]⟩ ![0, 2] hb (e j)) hc rfl rfl (ix3 b j k) j rfl (ix3 b (0 : Fin 1) k)
      (fun a ha => by
        match a with
        | ⟨0, _⟩ => rfl
        | ⟨1, _⟩ => exact absurd rfl ha
        | ⟨2, _⟩ => rfl)).trans
    (broadcastInDim_a4_a14_apply (e j) hb b 0 k)

/-- Eight `n × 4 × 4` arrays stacked along a new axis 1: entry `(b, f, i, k)` is array `f` at `(b, i, k)`. -/
theorem cat8_apply {n : ℕ} (e : Fin 8 → (⟨3, ![n, 4, 4]⟩ : Shape).Idx → α)
    (hb : (⟨3, ![n, 4, 4]⟩ : Shape).BroadcastsInDim ⟨4, ![n, 1, 4, 4]⟩ ![0, 2, 3])
    (hc : Shape.Concatenates [⟨4, ![n, 1, 4, 4]⟩, ⟨4, ![n, 1, 4, 4]⟩, ⟨4, ![n, 1, 4, 4]⟩, ⟨4, ![n, 1, 4, 4]⟩,
      ⟨4, ![n, 1, 4, 4]⟩, ⟨4, ![n, 1, 4, 4]⟩, ⟨4, ![n, 1, 4, 4]⟩, ⟨4, ![n, 1, 4, 4]⟩] ⟨4, ![n, 8, 4, 4]⟩ 1)
    (b : Fin n) (f : Fin 8) (i k : Fin 4) :
    concatenate ⟨4, ![n, 8, 4, 4]⟩ 1
      [⟨⟨4, ![n, 1, 4, 4]⟩, broadcastInDim ⟨4, ![n, 1, 4, 4]⟩ ![0, 2, 3] hb (e 0)⟩, ⟨⟨4, ![n, 1, 4, 4]⟩, broadcastInDim ⟨4, ![n, 1, 4, 4]⟩ ![0, 2, 3] hb (e 1)⟩,
       ⟨⟨4, ![n, 1, 4, 4]⟩, broadcastInDim ⟨4, ![n, 1, 4, 4]⟩ ![0, 2, 3] hb (e 2)⟩, ⟨⟨4, ![n, 1, 4, 4]⟩, broadcastInDim ⟨4, ![n, 1, 4, 4]⟩ ![0, 2, 3] hb (e 3)⟩,
       ⟨⟨4, ![n, 1, 4, 4]⟩, broadcastInDim ⟨4, ![n, 1, 4, 4]⟩ ![0, 2, 3] hb (e 4)⟩, ⟨⟨4, ![n, 1, 4, 4]⟩, broadcastInDim ⟨4, ![n, 1, 4, 4]⟩ ![0, 2, 3] hb (e 5)⟩,
       ⟨⟨4, ![n, 1, 4, 4]⟩, broadcastInDim ⟨4, ![n, 1, 4, 4]⟩ ![0, 2, 3] hb (e 6)⟩, ⟨⟨4, ![n, 1, 4, 4]⟩, broadcastInDim ⟨4, ![n, 1, 4, 4]⟩ ![0, 2, 3] hb (e 7)⟩] hc
      (ix4 b f i k) = e f (ix3 b i k) := by
  show concatenate ⟨4, ![n, 8, 4, 4]⟩ 1 (List.ofFn fun f : Fin 8 =>
    (⟨⟨4, ![n, 1, 4, 4]⟩, broadcastInDim ⟨4, ![n, 1, 4, 4]⟩ ![0, 2, 3] hb (e f)⟩ : (s : Shape) × (s.Idx → α))) hc (ix4 b f i k) = _
  exact (concatenate_ofFn_unit_apply (t := ⟨4, ![n, 8, 4, 4]⟩) (s₁ := ⟨4, ![n, 1, 4, 4]⟩) (1 : Fin 4)
      (fun f : Fin 8 => broadcastInDim ⟨4, ![n, 1, 4, 4]⟩ ![0, 2, 3] hb (e f)) hc rfl rfl (ix4 b f i k) f rfl (ix4 b (0 : Fin 1) i k)
      (fun a ha => by
        match a with
        | ⟨0, _⟩ => rfl
        | ⟨1, _⟩ => exact absurd rfl ha
        | ⟨2, _⟩ => rfl
        | ⟨3, _⟩ => rfl)).trans
    (broadcastInDim_a44_a144_apply (e f) hb b 0 i k)

end Idealize.ShloMosaic.ValueIdx
-- ==== Proof.LibBatchMatmulSum.lean ====
/-
  A batched matrix product  [m, n, K] x [m, K, w] -> [m, n, w]  at the ideal values: for each g < m the g-th left
  matrix times the g-th right matrix.  Read at entry (g, p, q) it is the sum over k < K of left(g, p, k) * right(g, k, q),
  for any sizes and whichever record of dimension numbers spells it.  The record enters only through eight facts about
  its index maps: one contracted axis of extent K; the batch axis is axis 0 of both operands and of the result; the left
  operand is contracted on its axis 2 and keeps its axis 1, the right is contracted on its axis 1 and keeps its axis 2.
-/
import Idealize.ShloMosaic.PureOps.Ideal.Laws
import Idealize.ShloMosaic.Lib.Pipeline.Value
import Idealize.ShloMosaic.Lib.ValueIdx

noncomputable section

namespace Cert.LibBatchMatmulSum

open Idealize.ShloMosaic Idealize.ShloMosaic.ValueIdx

/-- The index facts of a product batched over axis 0, with contraction length `K`. -/
structure Batched {m n K w : ℕ} (d : DotDims ⟨3, ![m, n, K]⟩ ⟨3, ![m, K, w]⟩ ⟨3, ![m, n, w]⟩) : Prop where
  rank : d.contr.rank = 1
  size : d.contr.size ⟨0, by rw [rank]; exact Nat.one_pos⟩ = K
  l0 : ∀ (i : (⟨3, ![m, n, w]⟩ : Shape).Idx) (q : d.contr.Idx), (d.lhsIdx i q 0).val = (i 0).val
  l1 : ∀ (i : (⟨3, ![m, n, w]⟩ : Shape).Idx) (q : d.contr.Idx), (d.lhsIdx i q 1).val = (i 1).val
  l2 : ∀ (i : (⟨3, ![m, n, w]⟩ : Shape).Idx) (q : d.contr.Idx), (d.lhsIdx i q 2).val = (q ⟨0, by rw [rank]; exact Nat.one_pos⟩).val
  r0 : ∀ (i : (⟨3, ![m, n, w]⟩ : Shape).Idx) (q : d.contr.Idx), (d.rhsIdx i q 0).val = (i 0).val
  r1 : ∀ (i : (⟨3, ![m, n, w]⟩ : Shape).Idx) (q : d.contr.Idx), (d.rhsIdx i q 1).val = (q ⟨0, by rw [rank]; exact Nat.one_pos⟩).val
  r2 : ∀ (i : (⟨3, ![m, n, w]⟩ : Shape).Idx) (q : d.contr.Idx), (d.rhsIdx i q 2).val = (i 2).val

/-- The contraction sum at entry (g, p, q), re-indexed by k < K. -/
theorem sum_eq {m n K w : ℕ} {d : DotDims ⟨3, ![m, n, K]⟩ ⟨3, ![m, K, w]⟩ ⟨3, ![m, n, w]⟩} (hd : Batched d)
    (l : (⟨3, ![m, n, K]⟩ : Shape).Idx → EReal) (r : (⟨3, ![m, K, w]⟩ : Shape).Idx → EReal) (g : Fin m) (p : Fin n) (q : Fin w) :
    (∑ k : d.contr.Idx, l (d.lhsIdx (ix3 g p q) k) * r (d.rhsIdx (ix3 g p q) k)) = ∑ k : Fin K, l (ix3 g p k) * r (ix3 g k q) := by
  rw [← Equiv.sum_comp (contrEquiv1 d K hd.rank hd.size).symm]
  refine Finset.sum_congr rfl fun k _ => ?_
  have hk := contrEquiv1_symm_val d K hd.rank hd.size k
  have el : d.lhsIdx (ix3 g p q) ((contrEquiv1 d K hd.rank hd.size).symm k) = ix3 g p k := funext fun a => Fin.ext (by
    match a with
    | ⟨0, _⟩ => exact hd.l0 _ _
    | ⟨1, _⟩ => exact hd.l1 _ _
    | ⟨2, _⟩ => exact (hd.l2 _ _).trans hk)
  have er : d.rhsIdx (ix3 g p q) ((contrEquiv1 d K hd.rank hd.size).symm k) = ix3 g k q := funext fun a => Fin.ext (by
    match a with
    | ⟨0, _⟩ => exact hd.r0 _ _
    | ⟨1, _⟩ => exact (hd.r1 _ _).trans hk
    | ⟨2, _⟩ => exact hd.r2 _ _)
  rw [el, er]

/-- A batched matrix-unit product into the zero accumulator, at entry (g, p, q). -/
theorem matmul_zero_at {m n K w : ℕ} {d : DotDims ⟨3, ![m, n, K]⟩ ⟨3, ![m, K, w]⟩ ⟨3, ![m, n, w]⟩} (hd : Batched d) {φ₁ φ₂ : FTy}
    (prec : Option ContractPrecision) (l : FVec Ideal ⟨3, ![m, n, K]⟩ φ₁) (r : FVec Ideal ⟨3, ![m, K, w]⟩ φ₂)
    (g : Fin m) (p : Fin n) (q : Fin w) :
    FloatOps.matmul d prec l r (constant ⟨3, ![m, n, w]⟩ .f32 0x00000000#32) (ix3 g p q) = ∑ k : Fin K, l (ix3 g p k) * r (ix3 g k q) :=
  (Ideal.matmul_constant_zero_apply d prec l r (ix3 g p q)).trans (sum_eq hd l r g p q)

end Cert.LibBatchMatmulSum

end
-- ==== Proof.RefValue.lean ====
/-
  The reference, read at an index.

  The reference builds each joint's 4 × 4 transform for all rows at once — sixteen length-N vectors set side by side
  four at a time as N × 4 rows, the four rows stacked as an N × 4 × 4 array —, multiplies the eight arrays in turn by a
  product batched over the rows, and stacks the eight running products along a new axis.  Entry (b, i, k) of the
  n-th running product is therefore the sum over j of entry (b, i, j) of the one before times entry (b, j, k) of the
  n-th transform: frame n of the angles in row b.
-/
import proofs.«110546_j71622874628546_2_alg».proof.Proof.Gen.ReferenceIdeal.Run
import proofs.«110546_j71622874628546_2_alg».proof.Proof.FkResult
import proofs.«110546_j71622874628546_2_alg».proof.Proof.LibColumn
import proofs.«110546_j71622874628546_2_alg».proof.Proof.LibStack
import proofs.«110546_j71622874628546_2_alg».proof.Proof.LibBatchMatmulSum
import Idealize.ShloMosaic.PureOps.Ideal.Laws

set_option maxRecDepth 8192

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.ShloMosaic.StableHlo Idealize.SL.Sem Cert.Fk

/-! ## The host's spelling of the operations, on length-N vectors -/

/-- Length-N vectors with the host's pointwise operations and its splatted constants. -/
def hostAlg : Alg (FVec Ideal S2000000 .f32) where
  mul := mulf
  add := addf
  sub := subf
  neg := Host.negf
  cos := Host.cos
  sin := Host.sin
  zero := broadcastInDim S2000000 ![] bcast_S_S2000000 (constant S_ .f32 0x00000000#32)
  one := broadcastInDim S2000000 ![] bcast_S_S2000000 (constant S_ .f32 0x3F800000#32)
  hpi := broadcastInDim S2000000 ![] bcast_S_S2000000 (constant S_ .f32 0x3FC90FDB#32)
  k04 := broadcastInDim S2000000 ![] bcast_S_S2000000 (constant S_ .f32 0x3ECCCCCD#32)
  k039 := broadcastInDim S2000000 ![] bcast_S_S2000000 (constant S_ .f32 0x3EC7AE14#32)
  k0118 := broadcastInDim S2000000 ![] bcast_S_S2000000 (constant S_ .f32 0x3DF1A9FC#32)

/-- The seven angle columns of the input, each as a length-N vector. -/
def refAngs (x : FVec Ideal S2000000x7 .f32) : Fin 7 → FVec Ideal S2000000 .f32
  | 0 => shapeCast S2000000 (extractStridedSlice S2000000x1 ![0, 0] x slices_S2000000x7_S2000000x1_0_0) shapeCasts_S2000000x1_S2000000
  | 1 => shapeCast S2000000 (extractStridedSlice S2000000x1 ![0, 1] x slices_S2000000x7_S2000000x1_0_1) shapeCasts_S2000000x1_S2000000
  | 2 => shapeCast S2000000 (extractStridedSlice S2000000x1 ![0, 2] x slices_S2000000x7_S2000000x1_0_2) shapeCasts_S2000000x1_S2000000
  | 3 => shapeCast S2000000 (extractStridedSlice S2000000x1 ![0, 3] x slices_S2000000x7_S2000000x1_0_3) shapeCasts_S2000000x1_S2000000
  | 4 => shapeCast S2000000 (extractStridedSlice S2000000x1 ![0, 4] x slices_S2000000x7_S2000000x1_0_4) shapeCasts_S2000000x1_S2000000
  | 5 => shapeCast S2000000 (extractStridedSlice S2000000x1 ![0, 5] x slices_S2000000x7_S2000000x1_0_5) shapeCasts_S2000000x1_S2000000
  | 6 => shapeCast S2000000 (extractStridedSlice S2000000x1 ![0, 6] x slices_S2000000x7_S2000000x1_0_6) shapeCasts_S2000000x1_S2000000

/-- Four vectors side by side as an N × 4 array. -/
def rowOf (e : Fin 4 → FVec Ideal S2000000 .f32) : FVec Ideal S2000000x4 .f32 :=
  concatenate S2000000x4 1 [⟨S2000000x1, broadcastInDim S2000000x1 ![0] bcast_S2000000_S2000000x1_0 (e 0)⟩, ⟨S2000000x1, broadcastInDim S2000000x1 ![0] bcast_S2000000_S2000000x1_0 (e 1)⟩, ⟨S2000000x1, broadcastInDim S2000000x1 ![0] bcast_S2000000_S2000000x1_0 (e 2)⟩, ⟨S2000000x1, broadcastInDim S2000000x1 ![0] bcast_S2000000_S2000000x1_0 (e 3)⟩] concatenates_S2000000x1_S2000000x1_S2000000x1_S2000000x1_S2000000x4_d1

/-- Sixteen vectors as an N × 4 × 4 array. -/
def matOf (E : Fin 4 → Fin 4 → FVec Ideal S2000000 .f32) : FVec Ideal S2000000x4x4 .f32 :=
  concatenate S2000000x4x4 1 [⟨S2000000x1x4, broadcastInDim S2000000x1x4 ![0, 2] bcast_S2000000x4_S2000000x1x4_0_2 (rowOf (E 0))⟩, ⟨S2000000x1x4, broadcastInDim S2000000x1x4 ![0, 2] bcast_S2000000x4_S2000000x1x4_0_2 (rowOf (E 1))⟩, ⟨S2000000x1x4, broadcastInDim S2000000x1x4 ![0, 2] bcast_S2000000x4_S2000000x1x4_0_2 (rowOf (E 2))⟩, ⟨S2000000x1x4, broadcastInDim S2000000x1x4 ![0, 2] bcast_S2000000x4_S2000000x1x4_0_2 (rowOf (E 3))⟩] concatenates_S2000000x1x4_S2000000x1x4_S2000000x1x4_S2000000x1x4_S2000000x4x4_d1

/-- Local transform `n` of every row. -/
def locMat (x : FVec Ideal S2000000x7 .f32) (n : Nat) : FVec Ideal S2000000x4x4 .f32 :=
  matOf fun j k => ent hostAlg (refAngs x) (tbl n j k)

/-- The running product: frame `n` of every row. -/
def refFr (x : FVec Ideal S2000000x7 .f32) : Nat → FVec Ideal S2000000x4x4 .f32
  | 0 => locMat x 0
  | n + 1 => Host.dotGeneral dot_S2000000x4x4_S2000000x4x4_S2000000x4x4_2_1_1_2_0_0 none (refFr x n) (locMat x (n + 1))

/-- The eight frames stacked. -/
def refOut (x : FVec Ideal S2000000x7 .f32) : FVec Ideal S2000000x8x4x4 .f32 :=
  concatenate S2000000x8x4x4 1 [⟨S2000000x1x4x4, broadcastInDim S2000000x1x4x4 ![0, 2, 3] bcast_S2000000x4x4_S2000000x1x4x4_0_2_3 (refFr x 0)⟩, ⟨S2000000x1x4x4, broadcastInDim S2000000x1x4x4 ![0, 2, 3] bcast_S2000000x4x4_S2000000x1x4x4_0_2_3 (refFr x 1)⟩, ⟨S2000000x1x4x4, broadcastInDim S2000000x1x4x4 ![0, 2, 3] bcast_S2000000x4x4_S2000000x1x4x4_0_2_3 (refFr x 2)⟩, ⟨S2000000x1x4x4, broadcastInDim S2000000x1x4x4 ![0, 2, 3] bcast_S2000000x4x4_S2000000x1x4x4_0_2_3 (refFr x 3)⟩, ⟨S2000000x1x4x4, broadcastInDim S2000000x1x4x4 ![0, 2, 3] bcast_S2000000x4x4_S2000000x1x4x4_0_2_3 (refFr x 4)⟩, ⟨S2000000x1x4x4, broadcastInDim S2000000x1x4x4 ![0, 2, 3] bcast_S2000000x4x4_S2000000x1x4x4_0_2_3 (refFr x 5)⟩, ⟨S2000000x1x4x4, broadcastInDim S2000000x1x4x4 ![0, 2, 3] bcast_S2000000x4x4_S2000000x1x4x4_0_2_3 (refFr x 6)⟩, ⟨S2000000x1x4x4, broadcastInDim S2000000x1x4x4 ![0, 2, 3] bcast_S2000000x4x4_S2000000x1x4x4_0_2_3 (refFr x 7)⟩] concatenates_S2000000x1x4x4_S2000000x1x4x4_S2000000x1x4x4_S2000000x1x4x4_S2000000x1x4x4_S2000000x1x4x4_S2000000x1x4x4_S2000000x1x4x4_S2000000x8x4x4_d1

/-- The reference's result buffer after the run is that stack of the input array: the run's composed term, unfolded. -/
theorem out_eq (V0 : Valuation τ sig (Elt Ideal)) :
    val5 V0 (no_index (Proc.devRef .tc main_v273)) = refOut (V0 (Proc.devRef .tc main_arg0)) :=
  (val5_main_v273 V0).trans rfl

/-! ## Reading at an index -/

theorem hostAlg_th (a : Fin 7 → FVec Ideal S2000000 .f32) (idx : S2000000.Idx) :
    ∀ j : Fin 7, th hostAlg a j idx = th negAlg (fun j => a j idx) j
  | 0 => rfl
  | 1 => rfl
  | 2 => rfl
  | 3 => rfl
  | 4 => rfl
  | 5 => rfl
  | 6 => rfl

theorem hostAlg_ent (a : Fin 7 → FVec Ideal S2000000 .f32) (idx : S2000000.Idx) (e : Ent) :
    ent hostAlg a e idx = ent negAlg (fun j => a j idx) e := by
  cases e with
  | z => rfl
  | o => rfl
  | no => rfl
  | c j => exact congrArg Ideal.cos (hostAlg_th a idx j)
  | s j => exact congrArg Ideal.sin (hostAlg_th a idx j)
  | nc j => exact congrArg (fun t => -Ideal.cos t) (hostAlg_th a idx j)
  | ns j => exact congrArg (fun t => -Ideal.sin t) (hostAlg_th a idx j)
  | k04 => rfl
  | k039 => rfl
  | k0118 => rfl

/-- Sixteen vectors as an N × 4 × 4 array: entry `(b, j, k)` is vector `(j, k)` at `b`. -/
theorem matOf_apply (E : Fin 4 → Fin 4 → FVec Ideal S2000000 .f32) (b : Fin 2000000) (j k : Fin 4) :
    matOf E (ix3 b j k) = E j k (ix1 b) :=
  (cat4_rows_apply (fun j => rowOf (E j)) bcast_S2000000x4_S2000000x1x4_0_2 concatenates_S2000000x1x4_S2000000x1x4_S2000000x1x4_S2000000x1x4_S2000000x4x4_d1 b j k).trans
    (cat4_cols_apply (E j) bcast_S2000000_S2000000x1_0 concatenates_S2000000x1_S2000000x1_S2000000x1_S2000000x1_S2000000x4_d1 b k)

theorem locMat_apply (x : FVec Ideal S2000000x7 .f32) (n : Nat) (b : Fin 2000000) (j k : Fin 4) :
    locMat x n (ix3 b j k) = ent negAlg (fun a => refAngs x a (ix1 b)) (tbl n j k) :=
  (matOf_apply _ b j k).trans (hostAlg_ent _ _ _)

/-- The batched product's record: batch axis 0, the left operand contracted on its axis 2, the right on its axis 1. -/
theorem batched : Cert.LibBatchMatmulSum.Batched (m := 2000000) (n := 4) (K := 4) (w := 4) dot_S2000000x4x4_S2000000x4x4_S2000000x4x4_2_1_1_2_0_0 where
  rank := rfl
  size := rfl
  l0 := fun _ _ => rfl
  l1 := fun _ _ => rfl
  l2 := fun i q => DotDims.lhsIdx_val_of_single dot_S2000000x4x4_S2000000x4x4_S2000000x4x4_2_1_1_2_0_0 (cl := 2) rfl i q
  r0 := fun _ _ => rfl
  r1 := fun i q => DotDims.rhsIdx_val_of_single dot_S2000000x4x4_S2000000x4x4_S2000000x4x4_2_1_1_2_0_0 (cr := 1) rfl i q
  r2 := fun _ _ => rfl

/-- Frame `n` of every row, read at `(b, i, k)`: frame `n` of row `b`'s angles. -/
theorem refFr_apply (x : FVec Ideal S2000000x7 .f32) (b : Fin 2000000) :
    ∀ (n : Nat) (i k : Fin 4), refFr x n (ix3 b i k) = fr negAlg (fun a => refAngs x a (ix1 b)) n i k
  | 0, i, k => locMat_apply x 0 b i k
  | n + 1, i, k => by
    show FloatOps.dotGeneral dot_S2000000x4x4_S2000000x4x4_S2000000x4x4_2_1_1_2_0_0 none .single (refFr x n) (locMat x (n + 1)) (ix3 b i k) = _
    rw [Ideal.dotGeneral_apply, Cert.LibBatchMatmulSum.sum_eq batched, Fin.sum_univ_four,
      refFr_apply x b n i 0, refFr_apply x b n i 1, refFr_apply x b n i 2, refFr_apply x b n i 3,
      locMat_apply, locMat_apply, locMat_apply, locMat_apply]
    rfl

/-- The angle columns at a row are the input's entries of that row. -/
theorem refAngs_apply (x : FVec Ideal S2000000x7 .f32) (b : Fin 2000000) :
    (fun a => refAngs x a (ix1 b)) = fun a => x (ix2 b a) := by
  funext a
  match a with
  | 0 => exact shapeCast_slice_col_apply x 0 slices_S2000000x7_S2000000x1_0_0 shapeCasts_S2000000x1_S2000000 b
  | 1 => exact shapeCast_slice_col_apply x 1 slices_S2000000x7_S2000000x1_0_1 shapeCasts_S2000000x1_S2000000 b
  | 2 => exact shapeCast_slice_col_apply x 2 slices_S2000000x7_S2000000x1_0_2 shapeCasts_S2000000x1_S2000000 b
  | 3 => exact shapeCast_slice_col_apply x 3 slices_S2000000x7_S2000000x1_0_3 shapeCasts_S2000000x1_S2000000 b
  | 4 => exact shapeCast_slice_col_apply x 4 slices_S2000000x7_S2000000x1_0_4 shapeCasts_S2000000x1_S2000000 b
  | 5 => exact shapeCast_slice_col_apply x 5 slices_S2000000x7_S2000000x1_0_5 shapeCasts_S2000000x1_S2000000 b
  | 6 => exact shapeCast_slice_col_apply x 6 slices_S2000000x7_S2000000x1_0_6 shapeCasts_S2000000x1_S2000000 b

/-- The stack of frames is the common result function of the input array. -/
theorem refOut_eq (x : FVec Ideal S2000000x7 .f32) : refOut x = result x := by
  funext j
  obtain ⟨b, f, i, k, rfl⟩ : ∃ (b : Fin 2000000) (f : Fin 8) (i k : Fin 4), j = ix4 b f i k := ⟨j 0, j 1, j 2, j 3, eq_ix4 j⟩
  rw [result_apply, ← refAngs_apply x b]
  exact (cat8_apply (fun f : Fin 8 => refFr x f.val) bcast_S2000000x4x4_S2000000x1x4x4_0_2_3 concatenates_S2000000x1x4x4_S2000000x1x4x4_S2000000x1x4x4_S2000000x1x4x4_S2000000x1x4x4_S2000000x1x4x4_S2000000x1x4x4_S2000000x1x4x4_S2000000x8x4x4_d1 b f i k).trans
    (refFr_apply x b f.val i k)

/-- The reference's run: the result buffer ends at the common result function of the input array, the input unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v273) = result (m ((c.tc : Thread nD τ).loc main_arg0))
      ∧ r.2.mem ((c.tc : Thread nD τ).loc main_arg0) = m ((c.tc : Thread nD τ).loc main_arg0) :=
  (θ_run defs _ _).mono (fun _ h c =>
      ⟨(h c).1.trans (((val5_main_v273 (launchContents m c)).symm.trans (out_eq (launchContents m c))).trans
          (refOut_eq (m ((c.tc : Thread nD τ).loc main_arg0)))), (h c).2⟩)
    (Value.run (F := Ideal) m ρ)

end Cert.ReferenceIdeal.RefValue

end
-- ==== Proof.lean ====
/-
  The forward kinematics of a seven-joint arm, for two million rows of joint angles: the kernel against its reference.

  Both programs compute, for every row b of the input, the eight frames  F0 = M0,  F(n+1) = F(n) · M(n+1)  of the row's
  4 × 4 local transforms M0 … M7, whose entries are 0, 1, -1, cosines and sines of the row's angles (three of them
  shifted by a quarter turn, the same binary value of π/2 on both sides), their negations, and three link lengths.
  The kernel handles 2000 rows per grid point and writes each entry of each frame as one column of a 2000 × 128
  block, every product entry as the four-term sum  a0·b0 + a1·b1 + a2·b2 + a3·b3  over whole columns; the host then
  reads the 128 columns of a row as 8 × 4 × 4.  The reference assembles the transforms as N × 4 × 4 arrays and
  multiplies them by a product batched over the rows.

  On the extended reals the two agree with no condition on the input: a batched product entry is the same four-term
  sum, the kernel's negation  0 - x  is  -x  for every x (the infinities included), and every literal is the same
  binary value on both sides.  The proof never opens the precondition.

  Module by module: `FkSpec` states the frames once over an abstract set of operations and reads them at vectors and
  at extended reals; `FkBlock` reads the kernel's block at an index; `KernelBlock` and `KernelArray` carry that from
  the block to the output array and through the host's reshape; `RefValue` reads the reference's run at an index;
  `FkResult` is the common function both results are shown equal to.  The three frames are the two kernel programs'
  frame certificates and the reference's run with its result dropped; the idealization rewrote nothing.
-/
import proofs.«110546_j71622874628546_2_alg».proof.Defs
import proofs.«110546_j71622874628546_2_alg».proof.Proof.Gen.Kernel
import proofs.«110546_j71622874628546_2_alg».proof.Proof.Gen.KernelIdeal
import proofs.«110546_j71622874628546_2_alg».proof.Proof.Gen.ReferenceIdeal
import proofs.«110546_j71622874628546_2_alg».proof.Proof.Gen.ReferenceIdeal.Run
import proofs.«110546_j71622874628546_2_alg».proof.Proof.Gen.Pre_finite_inputs
import proofs.«110546_j71622874628546_2_alg».proof.Proof.FrameKernel
import proofs.«110546_j71622874628546_2_alg».proof.Proof.FrameKernelIdeal
import proofs.«110546_j71622874628546_2_alg».proof.Proof.KernelArray
import proofs.«110546_j71622874628546_2_alg».proof.Proof.RefValue
import Idealize.ShloMosaic.Adequacy
import Idealize.ShloMosaic.Init

noncomputable section

namespace Cert.Proof

open Idealize.ShloMosaic Idealize.SL.Sem

/-- The word-level kernel runs and leaves its input unchanged. -/
theorem frame_k : Cert.frame_Kernel (hKernel := Cert.Kernel.Gen.facts) (hPre_finite_inputs := Cert.Pre_finite_inputs.Gen.facts) :=
  fun m ρ _ => Cert.Kernel.GenP.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- And the reference: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Run from memories that agree on the input, both idealized programs end with the eight frames of every row. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RefValue.run m' ρ')
  exact congrArg Cert.Fk.result (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
